-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x64 .f32) (main_arg4 : FVec F S64 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 63
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x1, .f32⟩
  | .hbm, ⟨43, _⟩ => ⟨S1x128, .f32⟩
  | .hbm, ⟨44, _⟩ => ⟨S50000x128, .f32⟩
  | .hbm, ⟨45, _⟩ => ⟨S50000x1, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S1x64, .f32⟩
  | .hbm, ⟨62, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x1, .f32⟩
  | .hbm, ⟨54, _⟩ => ⟨S50000x128, .f32⟩
  | .hbm, ⟨55, _⟩ => ⟨S50000x128, .f32⟩
  | .hbm, ⟨56, _⟩ => ⟨S50000x64, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x64, .f32⟩
  | .hbm, ⟨66, _⟩ => ⟨S_, .f32⟩
  | .hbm, ⟨67, _⟩ => ⟨S50000x64, .f32⟩
  | .hbm, ⟨68, _⟩ => ⟨S800000x1, .i32⟩
  | .hbm, ⟨69, _⟩ => ⟨S50000x64, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call0_cst : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its result kept.

  @main is four pallas_call regions among stretches of host operations.  Its run over those segments ends with every
  unscoped buffer of a core at the contents the last segment boundary names, the fold `Gen.W8` through the program:
  each host stretch rewrites the buffers its operations write, each region leaves its output array at what its grid
  points wrote back.  Read at the seven argument buffers that fold is the launch memory; read at the result buffer it is
  what the value of the program is computed from.  The statement below is that run with both kept.
-/
import proofs.«153666_j4432406250065_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Hand

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«153666_j4432406250065_1_alg».proof.Proof.LibMatmulPlain
import proofs.«153666_j4432406250065_1_alg».proof.Proof.LibDotsNT
import proofs.«153666_j4432406250065_1_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibScaledDense.lean ====
/-
  A dense layer whose input rows are scaled before the product, read at an entry of its result, on the extended reals.

  For a feature array X : [a, k], a column of row scales S : [a, 1] and a weight matrix W : [k, n] the layer is
  (X * S) W, the scale of row r applied to every entry of that row before the product is taken:

      entry (r, q)  =  sum over c of (X(r, c) * S(r, 0)) * W(c, q).

  The tile of a grid point spells it with the column spread over the columns of the block, an elementwise product, and
  the matrix unit's product of the operands in bfloat16 (a change of format, which does nothing to an extended real)
  into a zero accumulator; the host spells it with a broadcast_in_dim of the column, an elementwise product and a
  dot_general.  Both are the function `spec` below of the three arrays, as whole arrays.  An entry of `spec` depends
  only on one row of X, one entry of S and one column of W, so it can be read off any arrays that agree there
  (`spec_congr`): that is what makes a block of rows of the layer the layer of the block of rows.
-/
import Idealize.ShloMosaic.Lib.Pipeline.Value
import Idealize.ShloMosaic.Lib.ValueIdx
import Idealize.ShloMosaic.Lib.ValueLayout
import Idealize.ShloMosaic.PureOps.Ideal.Laws
import proofs.«153666_j4432406250065_1_alg».proof.Proof.LibDenseLayer

noncomputable section

open scoped BigOperators

namespace Cert.ScaledDense

open Idealize.ShloMosaic Idealize.ShloMosaic.ValueIdx

variable {a k n : ℕ}

/-- X with row r multiplied by the scale S(r, 0). -/
def scaled (X : (⟨2, ![a, k]⟩ : Shape).Idx → EReal) (S : (⟨2, ![a, 1]⟩ : Shape).Idx → EReal) :
    (⟨2, ![a, k]⟩ : Shape).Idx → EReal :=
  fun i => X i * S (ix2 (i 0) (0 : Fin 1))

/-- The layer: the product of the row-scaled X with W. -/
def spec (X : (⟨2, ![a, k]⟩ : Shape).Idx → EReal) (S : (⟨2, ![a, 1]⟩ : Shape).Idx → EReal)
    (W : (⟨2, ![k, n]⟩ : Shape).Idx → EReal) : (⟨2, ![a, n]⟩ : Shape).Idx → EReal :=
  Cert.Dense.prod (scaled X S) W

/-- The layer at entry (r, q): the sum over c of (X(r, c) * S(r, 0)) * W(c, q). -/
theorem spec_ix2 (X : (⟨2, ![a, k]⟩ : Shape).Idx → EReal) (S : (⟨2, ![a, 1]⟩ : Shape).Idx → EReal)
    (W : (⟨2, ![k, n]⟩ : Shape).Idx → EReal) (r : Fin a) (q : Fin n) :
    spec X S W (ix2 r q) = ∑ c : Fin k, (X (ix2 r c) * S (ix2 r (0 : Fin 1))) * W (ix2 c q) := rfl

/-- An entry of the layer depends only on row r of X, on S(r, 0) and on column q of W: arrays of any heights and
    widths that agree there give the same entry. -/
theorem spec_congr {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (r : Fin a) (q : Fin n) (r' : Fin a') (q' : Fin n')
    (hX : ∀ c : Fin k, X (ix2 r c) = X' (ix2 r' c)) (hS : S (ix2 r (0 : Fin 1)) = S' (ix2 r' (0 : Fin 1)))
    (hW : ∀ c : Fin k, W (ix2 c q) = W' (ix2 c q')) :
    spec X S W (ix2 r q) = spec X' S' W' (ix2 r' q') := by
  rw [spec_ix2, spec_ix2]
  exact Finset.sum_congr rfl fun c _ => by rw [hX c, hS, hW c]

/-- The same at any two indices: the layer at `j` over one triple of arrays is the layer at `i` over another when the
    two triples agree on the row, the scale and the column those entries read. -/
theorem spec_congr_at {a' n' : ℕ}
    (X : (⟨2, ![a, k]⟩ : Shape).Idx → EReal) (S : (⟨2, ![a, 1]⟩ : Shape).Idx → EReal)
    (W : (⟨2, ![k, n]⟩ : Shape).Idx → EReal)
    (X' : (⟨2, ![a', k]⟩ : Shape).Idx → EReal) (S' : (⟨2, ![a', 1]⟩ : Shape).Idx → EReal)
    (W' : (⟨2, ![k, n']⟩ : Shape).Idx → EReal)
    (j : (⟨2, ![a, n]⟩ : Shape).Idx) (i : (⟨2, ![a', n']⟩ : Shape).Idx)
    (hX : ∀ c : Fin k, X (ix2 (j 0) c) = X' (ix2 (i 0) c))
    (hS : S (ix2 (j 0) (0 : Fin 1)) = S' (ix2 (i 0) (0 : Fin 1)))
    (hW : ∀ c : Fin k, W (ix2 c (j 1)) = W' (ix2 c (i 1))) :
    spec X S W j = spec X' S' W' i := by
  show ∑ c : Fin k, (X (ix2 (j 0) c) * S (ix2 (j 0) (0 : Fin 1))) * W (ix2 c (j 1))
    = ∑ c : Fin k, (X' (ix2 (i 0) c) * S' (ix2 (i 0) (0 : Fin 1))) * W' (ix2 c (i 1))
  exact Finset.sum_congr rfl fun c _ => by rw [hX c, hS, hW c]

/-- The tile's scaling: the column cast to itself, spread over the columns of the block and multiplied in. -/
theorem tile_scaled (x0 : FVec Ideal ⟨2, ![a, k]⟩ .f32) (x1 : FVec Ideal ⟨2, ![a, 1]⟩ .f32)
    (hc : (⟨2, ![a, 1]⟩ : Shape).ShapeCasts ⟨2, ![a, 1]⟩) (hb : (⟨2, ![a, 1]⟩ : Shape).Broadcasts ⟨2, ![a, k]⟩) :
    mulf x0 (broadcastTo ⟨2, ![a, k]⟩ (shapeCast ⟨2, ![a, 1]⟩ x1 hc) hb) = scaled x0 x1 := by
  funext j
  obtain ⟨r, c, rfl⟩ : ∃ (r : Fin a) (c : Fin k), j = ix2 r c := ⟨j 0, j 1, eq_ix2 j⟩
  rw [mulf_apply, shapeCast_self, Cert.LibKeepdims.broadcastTo_a1_ab_apply]
  rfl

/-- The host's scaling: the column laid over the array by broadcast_in_dim along both axes and multiplied in. -/
theorem host_scaled (X : FVec Ideal ⟨2, ![a, k]⟩ .f32) (S : FVec Ideal ⟨2, ![a, 1]⟩ .f32)
    (hS : (⟨2, ![a, 1]⟩ : Shape).BroadcastsInDim ⟨2, ![a, k]⟩ ![0, 1]) :
    mulf X (broadcastInDim ⟨2, ![a, k]⟩ ![0, 1] hS S) = scaled X S := by
  funext j
  obtain ⟨r, c, rfl⟩ : ∃ (r : Fin a) (c : Fin k), j = ix2 r c := ⟨j 0, j 1, eq_ix2 j⟩
  rw [mulf_apply, Cert.Dense.bcast_col_apply]
  rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The tile's spelling is the layer: the scaled block in bfloat16 times the weights (in any float format, cast to
    their own shape) into a zero accumulator. -/
theorem tile_eq_spec {φ : FTy} (x0 : FVec Ideal ⟨2, ![a, k]⟩ .f32) (x1 : FVec Ideal ⟨2, ![a, 1]⟩ .f32)
    (x2 : FVec Ideal ⟨2, ![k, n]⟩ φ)
    (hc : (⟨2, ![a, 1]⟩ : Shape).ShapeCasts ⟨2, ![a, 1]⟩) (hb : (⟨2, ![a, 1]⟩ : Shape).Broadcasts ⟨2, ![a, k]⟩)
    (hw : (⟨2, ![k, n]⟩ : Shape).ShapeCasts ⟨2, ![k, n]⟩) (ht : FTy.bf16.bits < FTy.f32.bits) :
    matmul d none (truncf .bf16 (mulf x0 (broadcastTo ⟨2, ![a, k]⟩ (shapeCast ⟨2, ![a, 1]⟩ x1 hc) hb)) ht)
        (shapeCast ⟨2, ![k, n]⟩ x2 hw) (constant (F := Ideal) ⟨2, ![a, n]⟩ .f32 0x00000000#32)
      = spec x0 x1 x2 := by
  rw [tile_scaled, shapeCast_self]
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's spelling is the layer: the dot_general of the scaled array with the weights. -/
theorem host_eq_spec (X : FVec Ideal ⟨2, ![a, k]⟩ .f32) (S : FVec Ideal ⟨2, ![a, 1]⟩ .f32)
    (W : FVec Ideal ⟨2, ![k, n]⟩ .f32) (hS : (⟨2, ![a, 1]⟩ : Shape).BroadcastsInDim ⟨2, ![a, k]⟩ ![0, 1]) :
    Host.dotGeneral (F := Ideal) d none (mulf X (broadcastInDim ⟨2, ![a, k]⟩ ![0, 1] hS S)) W = spec X S W := by
  rw [host_scaled]
  exact Cert.Dense.dotGeneral_eq_prod d hlc hrc hln hrn hlb hrb _ W

end Products

end Cert.ScaledDense

end
-- ==== Proof.LibRowAffine.lean ====
/-
  An array scaled row by row and shifted by a bias row, optionally rectified, read at an entry, on the extended reals.

  For an array P : [a, n], a column of row scales S : [a, 1] and a bias row B : [1, n] the affine form is

      spec P S B (r, q)    =  P(r, q) * S(r, 0) + B(0, q),
      rect z P S B (r, q)  =  max (spec P S B (r, q)) z        (the rectifier when z is zero).

  The tile of a grid point spells it with the column and the row spread over the block (a cast of each to its own
  shape, then a vector broadcast), an elementwise product and sum, and for the rectified form a maximum with a splat
  scalar; the host spells it with broadcast_in_dim along both axes and, for the rectifier, a maximum with a rank-0
  constant laid over the array.  Both are the functions below of the three arrays, as whole arrays.  An entry depends
  only on the same entry of P, one entry of S and one entry of B, so it can be read off any arrays that agree there
  (`spec_congr_at`, `rect_congr_at`): that is what makes a block of rows of the form the form of the block of rows.
-/
import Idealize.ShloMosaic.Lib.Pipeline.Value
import Idealize.ShloMosaic.Lib.ValueIdx
import Idealize.ShloMosaic.Lib.ValueLayout
import Idealize.ShloMosaic.PureOps.Ideal.Laws
import proofs.«153666_j4432406250065_1_alg».proof.Proof.LibDenseLayer

noncomputable section

namespace Cert.RowAffine

open Idealize.ShloMosaic Idealize.ShloMosaic.ValueIdx

variable {a n : ℕ}

/-- P with row r multiplied by S(r, 0) and B(0, q) added in column q. -/
def spec (P : (⟨2, ![a, n]⟩ : Shape).Idx → EReal) (S : (⟨2, ![a, 1]⟩ : Shape).Idx → EReal)
    (B : (⟨2, ![1, n]⟩ : Shape).Idx → EReal) : (⟨2, ![a, n]⟩ : Shape).Idx → EReal :=
  fun i => P i * S (ix2 (i 0) (0 : Fin 1)) + B (ix2 (0 : Fin 1) (i 1))

/-- The same, bounded below by z entry by entry. -/
def rect (z : EReal) (P : (⟨2, ![a, n]⟩ : Shape).Idx → EReal) (S : (⟨2, ![a, 1]⟩ : Shape).Idx → EReal)
    (B : (⟨2, ![1, n]⟩ : Shape).Idx → EReal) : (⟨2, ![a, n]⟩ : Shape).Idx → EReal :=
  fun i => max (spec P S B i) z

/-- An entry of the affine form depends only on that entry of P, on S in its row and on B in its column: arrays of any
    heights and widths that agree there give the same entry. -/
theorem spec_congr_at {a' n' : ℕ}
    (P : (⟨2, ![a, n]⟩ : Shape).Idx → EReal) (S : (⟨2, ![a, 1]⟩ : Shape).Idx → EReal)
    (B : (⟨2, ![1, n]⟩ : Shape).Idx → EReal)
    (P' : (⟨2, ![a', n']⟩ : Shape).Idx → EReal) (S' : (⟨2, ![a', 1]⟩ : Shape).Idx → EReal)
    (B' : (⟨2, ![1, n']⟩ : Shape).Idx → EReal)
    (j : (⟨2, ![a, n]⟩ : Shape).Idx) (i : (⟨2, ![a', n']⟩ : Shape).Idx)
    (hP : P j = P' i) (hS : S (ix2 (j 0) (0 : Fin 1)) = S' (ix2 (i 0) (0 : Fin 1)))
    (hB : B (ix2 (0 : Fin 1) (j 1)) = B' (ix2 (0 : Fin 1) (i 1))) :
    spec P S B j = spec P' S' B' i := by
  show P j * S (ix2 (j 0) (0 : Fin 1)) + B (ix2 (0 : Fin 1) (j 1))
    = P' i * S' (ix2 (i 0) (0 : Fin 1)) + B' (ix2 (0 : Fin 1) (i 1))
  rw [hP, hS, hB]

/-- The same for the rectified form. -/
theorem rect_congr_at {a' n' : ℕ} (z : EReal)
    (P : (⟨2, ![a, n]⟩ : Shape).Idx → EReal) (S : (⟨2, ![a, 1]⟩ : Shape).Idx → EReal)
    (B : (⟨2, ![1, n]⟩ : Shape).Idx → EReal)
    (P' : (⟨2, ![a', n']⟩ : Shape).Idx → EReal) (S' : (⟨2, ![a', 1]⟩ : Shape).Idx → EReal)
    (B' : (⟨2, ![1, n']⟩ : Shape).Idx → EReal)
    (j : (⟨2, ![a, n]⟩ : Shape).Idx) (i : (⟨2, ![a', n']⟩ : Shape).Idx)
    (hP : P j = P' i) (hS : S (ix2 (j 0) (0 : Fin 1)) = S' (ix2 (i 0) (0 : Fin 1)))
    (hB : B (ix2 (0 : Fin 1) (j 1)) = B' (ix2 (0 : Fin 1) (i 1))) :
    rect z P S B j = rect z P' S' B' i := by
  show max (spec P S B j) z = max (spec P' S' B' i) z
  rw [spec_congr_at P S B P' S' B' j i hP hS hB]

/-- The tile's spelling of the affine form: the block cast to its own shape, the column and the row spread over it. -/
theorem tile_eq_spec (x0 : FVec Ideal ⟨2, ![a, n]⟩ .f32) (x1 : FVec Ideal ⟨2, ![a, 1]⟩ .f32)
    (x2 : FVec Ideal ⟨2, ![1, n]⟩ .f32)
    (hc0 : (⟨2, ![a, n]⟩ : Shape).ShapeCasts ⟨2, ![a, n]⟩)
    (hc1 : (⟨2, ![a, 1]⟩ : Shape).ShapeCasts ⟨2, ![a, 1]⟩) (hb1 : (⟨2, ![a, 1]⟩ : Shape).Broadcasts ⟨2, ![a, n]⟩)
    (hc2 : (⟨2, ![1, n]⟩ : Shape).ShapeCasts ⟨2, ![1, n]⟩) (hb2 : (⟨2, ![1, n]⟩ : Shape).Broadcasts ⟨2, ![a, n]⟩) :
    addf (mulf (shapeCast ⟨2, ![a, n]⟩ x0 hc0) (broadcastTo ⟨2, ![a, n]⟩ (shapeCast ⟨2, ![a, 1]⟩ x1 hc1) hb1))
        (broadcastTo ⟨2, ![a, n]⟩ (shapeCast ⟨2, ![1, n]⟩ x2 hc2) hb2)
      = spec x0 x1 x2 := by
  rw [shapeCast_self]
  funext j
  obtain ⟨r, q, rfl⟩ : ∃ (r : Fin a) (q : Fin n), j = ix2 r q := ⟨j 0, j 1, eq_ix2 j⟩
  exact Cert.Dense.tile_affine x0 x1 x2 hc1 hb1 hc2 hb2 r q

/-- The host's spelling of the affine form: the column and the row laid over the array by broadcast_in_dim. -/
theorem host_eq_spec (P : FVec Ideal ⟨2, ![a, n]⟩ .f32) (S : FVec Ideal ⟨2, ![a, 1]⟩ .f32)
    (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    addf (mulf P (broadcastInDim ⟨2, ![a, n]⟩ ![0, 1] hS S)) (broadcastInDim ⟨2, ![a, n]⟩ ![0, 1] hB B)
      = spec P S B := by
  funext j
  obtain ⟨r, q, rfl⟩ : ∃ (r : Fin a) (q : Fin n), j = ix2 r q := ⟨j 0, j 1, eq_ix2 j⟩
  exact Cert.Dense.host_affine P S B hS hB r q

/-- The tile's rectifier: a maximum with a scalar word splat over the block. -/
theorem tile_rect (w : BitVec 32) (Y : FVec Ideal ⟨2, ![a, n]⟩ .f32) :
    maximumf Y (broadcast ⟨2, ![a, n]⟩ (Scalar.ofBits (F := Ideal) .f32 w))
      = fun i => max (Y i) (Ideal.ofBits .f32 w) := rfl

/-- The host's rectifier: a maximum with a rank-0 constant laid over the array. -/
theorem host_rect (w : BitVec 32) (Y : FVec Ideal ⟨2, ![a, n]⟩ .f32)
    (hz : (⟨0, ![]⟩ : Shape).BroadcastsInDim ⟨2, ![a, n]⟩ ![]) :
    maximumf Y (broadcastInDim ⟨2, ![a, n]⟩ ![] hz (constant (F := Ideal) ⟨0, ![]⟩ .f32 w))
      = fun i => max (Y i) (Ideal.ofBits .f32 w) := by
  funext i
  exact congrArg (max (Y i))
    (broadcastInDim_apply (s := ⟨0, ![]⟩) (t := ⟨2, ![a, n]⟩) ![] hz (constant (F := Ideal) ⟨0, ![]⟩ .f32 w) i
      (fun d => d.elim0) (fun d => d.elim0))

end Cert.RowAffine

end
-- ==== Proof.Spec.lean ====
/-
  What the program computes, as one function of its seven argument arrays, on the extended reals.

  A two-layer graph convolution over 50000 nodes and 800000 edges (src, dst).  With
      ns = rsqrt (max (out-degree, 1)),   nd = rsqrt (max (in-degree, 1))          (one entry per node),
  a layer sends a feature array h : [50000, k] to
      A = aggregate ((h * ns) W),      A(i, q) = sum over the edges into node i of ((h * ns) W)(src(e), q),
      A * nd + b                        (row i scaled by nd(i), the bias row added),
  the first layer followed by a rectifier.  Here (h * ns) W is the row-scaled product of LibScaledDense and A * nd + b
  the affine form of LibRowAffine.  The degree count (a scatter-add of ones), the wrap-around of negative edge ends and
  the gather / scatter-add of the aggregation are the host's own operations on both sides of the certificate: they are
  named here once and never opened.
-/
import proofs.«153666_j4432406250065_1_alg».proof.KernelIdeal
import proofs.«153666_j4432406250065_1_alg».proof.Proof.Gen.KernelIdeal
import proofs.«153666_j4432406250065_1_alg».proof.Proof.LibScaledDense
import proofs.«153666_j4432406250065_1_alg».proof.Proof.LibRowAffine

noncomputable section

namespace Cert.KernelIdeal.Hand

open Cert.KernelIdeal Cert.KernelIdeal.Facts₀ Idealize.ShloMosaic

/-- One word per edge. -/
abbrev Edges : Type := (⟨S800000, .i32⟩ : BufTy).Contents (Elt Ideal)

/-- rsqrt (max (number of edges with this end at the node, 1)), one entry per node. -/
def invSqrtDeg (idx : Edges) : FVec Ideal S50000 .f32 :=
  Host.rsqrt (F := Ideal) (maximumf
    (Host.scatterAdd (F := Ideal) scatter_S50000_S800000x1_S800000_n_0_0_1
      (broadcastInDim S50000 ![] bcast_S_S50000 (constant (F := Ideal) S_ .f32 0x00000000#32))
      (broadcastInDim S800000x1 ![0] bcast_S800000_S800000x1_0 idx)
      (broadcastInDim S800000 ![] bcast_S_S800000 (constant (F := Ideal) S_ .f32 0x3F800000#32)))
    (broadcastInDim S50000 ![] bcast_S_S50000 (constant (F := Ideal) S_ .f32 0x3F800000#32)))

/-- An edge end counted from the back when negative. -/
def wrapped (idx : Edges) : Edges :=
  select (cmpi .slt idx (broadcastInDim S800000 ![] bcast_S_S800000 (constantI S_ 32 0#32)))
    (addi idx (broadcastInDim S800000 ![] bcast_S_S800000 (constantI S_ 32 50000#32))) idx

/-- Row i of the result: the sum over the edges into node i of the source node's row (128 columns). -/
def aggregate128 (H : FVec Ideal S50000x128 .f32) (src dst : Edges) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 H
      (broadcastInDim S800000x1 ![0] bcast_S800000_S800000x1_0 (wrapped src)))

/-- The same over 64 columns. -/
def aggregate64 (H : FVec Ideal S50000x64 .f32) (src dst : Edges) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 H
      (broadcastInDim S800000x1 ![0] bcast_S800000_S800000x1_0 (wrapped src)))

/-- A per-node vector as a column. -/
def column (v : FVec Ideal S50000 .f32) : FVec Ideal S50000x1 .f32 := shapeCast S50000x1 v shapeCasts_S50000_S50000x1

/-- The product of the first layer: (x * ns) W1. -/
def product1 (x : FVec Ideal S50000x128 .f32) (W1 : FVec Ideal S128x128 .f32) (src : Edges) : FVec Ideal S50000x128 .f32 :=
  Cert.ScaledDense.spec (a := 50000) (k := 128) (n := 128) x (column (invSqrtDeg src)) W1

/-- The first layer: max (aggregate ((x * ns) W1) * nd + b1, 0). -/
def layer1 (x : FVec Ideal S50000x128 .f32) (W1 : FVec Ideal S128x128 .f32) (b1 : FVec Ideal S128 .f32)
    (src dst : Edges) : FVec Ideal S50000x128 .f32 :=
  Cert.RowAffine.rect (a := 50000) (n := 128) (Ideal.ofBits .f32 0x00000000#32) (aggregate128 (product1 x W1 src) src dst)
    (column (invSqrtDeg dst)) (shapeCast S1x128 b1 shapeCasts_S128_S1x128)

/-- The product of the second layer: (h * ns) W2. -/
def product2 (h : FVec Ideal S50000x128 .f32) (W2 : FVec Ideal S128x64 .f32) (src : Edges) : FVec Ideal S50000x64 .f32 :=
  Cert.ScaledDense.spec (a := 50000) (k := 128) (n := 64) h (column (invSqrtDeg src)) W2

/-- The second layer: aggregate ((h * ns) W2) * nd + b2. -/
def layer2 (h : FVec Ideal S50000x128 .f32) (W2 : FVec Ideal S128x64 .f32) (b2 : FVec Ideal S64 .f32)
    (src dst : Edges) : FVec Ideal S50000x64 .f32 :=
  Cert.RowAffine.spec (a := 50000) (n := 64) (aggregate64 (product2 h W2 src) src dst)
    (column (invSqrtDeg dst)) (shapeCast S1x64 b2 shapeCasts_S64_S1x64)

/-- The network. -/
def network (x : FVec Ideal S50000x128 .f32) (W1 : FVec Ideal S128x128 .f32) (b1 : FVec Ideal S128 .f32)
    (W2 : FVec Ideal S128x64 .f32) (b2 : FVec Ideal S64 .f32) (src dst : Edges) : FVec Ideal S50000x64 .f32 :=
  layer2 (layer1 x W1 b1 src dst) W2 b2 src dst

end Cert.KernelIdeal.Hand

end
-- ==== Proof.Region0.lean ====
/-
  Region 0: a row-scaled product, block by block.

  The grid has ten points; point t stages rows 5000 t .. 5000 t + 4999 of the feature array and of the scale column and
  the whole weight matrix, and writes back rows 5000 t .. 5000 t + 4999 of the result.  The body's one store is the
  product of the scaled block with the weights, an entry of which reads one row of the block, one scale and one column of
  the weights: so what point t writes back is block t of the row-scaled product of the WHOLE arrays, the ten blocks tile
  the result, and the result array ends holding that product.  Stated for any contents `V` the region is entered at.
-/
import proofs.«153666_j4432406250065_1_alg».proof.Proof.Gen.KernelIdeal.Frame
import proofs.«153666_j4432406250065_1_alg».proof.Proof.LibScaledDense
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The body's stored value is the row-scaled product of the blocks it loaded. -/
theorem tile0_eq (x0 : Vec Ideal S5000x128 .f32) (x1 : Vec Ideal S5000x1 .f32) (x2 : Vec Ideal S128x128 .f32) :
    k0_pay1 x0 x1 x2 = Cert.ScaledDense.spec (a := 5000) (k := 128) (n := 128) x0 x1 x2 := by
  unfold k0_pay1
  dsimp only
  simp only [shapeCast_self]
  have hscaled : (mulf (x0 : FVec Ideal S5000x128 .f32)
        (broadcastTo S5000x128 (x1 : FVec Ideal S5000x1 .f32) broadcasts_S5000x1_S5000x128) : FVec Ideal S5000x128 .f32)
      = Cert.ScaledDense.scaled (a := 5000) (k := 128) x0 x1 := by
    funext i
    obtain ⟨r, l, rfl⟩ : ∃ (r : Fin 5000) (l : Fin 128), i = ix2 r l := ⟨i 0, i 1, eq_ix2 i⟩
    rw [mulf_apply, Cert.LibKeepdims.broadcastTo_a1_ab_apply]
    rfl
  rw [hscaled]
  funext j
  obtain ⟨r, q, rfl⟩ : ∃ (r : Fin 5000) (q : Fin 128), j = ix2 r q := ⟨j 0, j 1, eq_ix2 j⟩
  exact Cert.LibMatmulPlain.matmul_zero_apply dot_S5000x128_S128x128_S5000x128_1_0_0_1_n_n rfl rfl rfl rfl rfl rfl none _ _ r q

/-- The block indices over the grid: the row windows move with the point, the weights stay. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the row-scaled product of the arrays the region is entered at. -/
theorem flushed0_eq (c : Dev nD) (t : Fin cfg0.N) :
    (dat0 V c).flushed 3 t = ((cfg0.win 3).blk t).view.read (Elt Ideal)
      (Cert.ScaledDense.spec (a := 50000) (k := 128) (n := 128) (V c main_arg0) (V c main_v14) (V c main_arg1)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S5000x1) zero_offsets0,
    View.ld_unit_zero (S := S128x128) zero_offsets0]
  rw [tile0_eq]
  obtain ⟨e00, e01, e10, e11, e20, e21, e30, e31⟩ := block_index0 t
  funext j
  show Cert.ScaledDense.spec (a := 5000) (k := 128) (n := 128) (iblk0 V c 0 t) (iblk0 V c 1 t) (iblk0 V c 2 t) j
    = Cert.ScaledDense.spec (a := 50000) (k := 128) (n := 128) (V c main_arg0) (V c main_v14) (V c main_arg1)
        (((cfg0.win 3).blk t).view.emb j)
  refine Cert.ScaledDense.spec_congr_at _ _ _ _ _ _ j _ (fun l => ?_) ?_ (fun l => ?_)
  · show V c main_arg0 (((cfg0.win 0).blk t).view.emb (ix2 (j 0) l))
      = V c main_arg0 (ix2 ((((cfg0.win 3).blk t).view.emb j) 0) l)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      omega
    | ⟨1, _⟩ =>
      show win0_0.index t (1 : Fin 2) * 128 + 1 * l.val = l.val
      omega
  · show V c main_v14 (((cfg0.win 1).blk t).view.emb (ix2 (j 0) (0 : Fin 1)))
      = V c main_v14 (ix2 ((((cfg0.win 3).blk t).view.emb j) 0) (0 : Fin 1))
    refine congrArg (V c main_v14) (funext fun a => Fin.ext ?_)
    match a with
    | ⟨0, _⟩ =>
      show win0_1.index t (0 : Fin 2) * 5000 + 1 * (j 0).val = win0_3.index t (0 : Fin 2) * 5000 + 1 * (j 0).val
      omega
    | ⟨1, _⟩ =>
      show win0_1.index t (1 : Fin 2) * 1 + 1 * 0 = 0
      omega
  · show V c main_arg1 (((cfg0.win 2).blk t).view.emb (ix2 l (j 1)))
      = V c main_arg1 (ix2 l ((((cfg0.win 3).blk t).view.emb j) 1))
    refine congrArg (V c main_arg1) (funext fun a => Fin.ext ?_)
    match a with
    | ⟨0, _⟩ =>
      show win0_2.index t (0 : Fin 2) * 128 + 1 * l.val = l.val
      omega
    | ⟨1, _⟩ =>
      show win0_2.index t (1 : Fin 2) * 128 + 1 * (j 1).val = win0_3.index t (1 : Fin 2) * 128 + 1 * (j 1).val
      omega

/-- An index of the result array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The ten blocks tile the result: row r is in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, e30, e31⟩ := block_index0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]
    omega

/-- The result array after the region: the row-scaled product of the arrays it was entered at. -/
theorem final0 (c : Dev nD) :
    (dat0 V c).arrAt 3 cfg0.N
      = Cert.ScaledDense.spec (a := 50000) (k := 128) (n := 128) (V c main_arg0) (V c main_v14) (V c main_arg1) :=
  (dat0 V c).arrAt_eq_of_cover 3 _ (fun t _ => flushed0_eq V c t) (cover0)

end Cert.KernelIdeal.Hand

end
-- ==== Proof.Region1.lean ====
/-
  Region 1: a row-scaled array plus a bias row, rectified, block by block.

  The grid has ten points; point t stages rows 5000 t .. 5000 t + 4999 of the aggregated array and of the scale column
  and the whole bias row, and writes back rows 5000 t .. 5000 t + 4999 of the result.  The body's one store is entry by
  entry a(r, q) * s(r, 0) + b(0, q) bounded below by zero, which reads the same entry of the block, one scale and one bias: so what point t
  writes back is block t of the rectified affine form of the WHOLE arrays, the ten blocks tile the result, and the result array ends
  holding that form.  Stated for any contents `V` the region is entered at.
-/
import proofs.«153666_j4432406250065_1_alg».proof.Proof.Gen.KernelIdeal.Frame
import proofs.«153666_j4432406250065_1_alg».proof.Proof.LibRowAffine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The body's stored value is the rectified affine form of the blocks it loaded. -/
theorem tile1_eq (x0 : Vec Ideal S5000x128 .f32) (x1 : Vec Ideal S5000x1 .f32) (x2 : Vec Ideal S1x128 .f32) :
    k1_pay1 x0 x1 x2 = Cert.RowAffine.rect (a := 5000) (n := 128) (Ideal.ofBits .f32 0x00000000#32) x0 x1 x2 := by
  unfold k1_pay1
  dsimp only
  rw [Cert.RowAffine.tile_eq_spec]
  exact Cert.RowAffine.tile_rect (a := 5000) (n := 128) 0x00000000#32 _

/-- The block indices over the grid: the row windows move with the point, the bias row stays. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the rectified affine form of the arrays the region is entered at. -/
theorem flushed1_eq (c : Dev nD) (t : Fin cfg1.N) :
    (dat1 V c).flushed 3 t = ((cfg1.win 3).blk t).view.read (Elt Ideal)
      (Cert.RowAffine.rect (a := 50000) (n := 128) (Ideal.ofBits .f32 0x00000000#32) (V c main_v25) (V c main_v26) (V c main_v27)) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S5000x1) zero_offsets1,
    View.ld_unit_zero (S := S1x128) zero_offsets1]
  rw [tile1_eq]
  obtain ⟨e00, e01, e10, e11, e20, e21, e30, e31⟩ := block_index1 t
  funext j
  show Cert.RowAffine.rect (a := 5000) (n := 128) (Ideal.ofBits .f32 0x00000000#32) (iblk1 V c 0 t) (iblk1 V c 1 t) (iblk1 V c 2 t) j
    = Cert.RowAffine.rect (a := 50000) (n := 128) (Ideal.ofBits .f32 0x00000000#32) (V c main_v25) (V c main_v26) (V c main_v27) (((cfg1.win 3).blk t).view.emb j)
  refine Cert.RowAffine.rect_congr_at (Ideal.ofBits .f32 0x00000000#32) _ _ _ _ _ _ j _ ?_ ?_ ?_
  · show V c main_v25 (((cfg1.win 0).blk t).view.emb j) = V c main_v25 (((cfg1.win 3).blk t).view.emb j)
    refine congrArg (V c main_v25) (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * (j 1).val = win1_3.index t (1 : Fin 2) * 128 + 1 * (j 1).val
      omega
  · show V c main_v26 (((cfg1.win 1).blk t).view.emb (ix2 (j 0) (0 : Fin 1)))
      = V c main_v26 (ix2 ((((cfg1.win 3).blk t).view.emb j) 0) (0 : Fin 1))
    refine congrArg (V c main_v26) (funext fun a => Fin.ext ?_)
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 1 + 1 * 0 = 0
      omega
  · show V c main_v27 (((cfg1.win 2).blk t).view.emb (ix2 (0 : Fin 1) (j 1)))
      = V c main_v27 (ix2 (0 : Fin 1) ((((cfg1.win 3).blk t).view.emb j) 1))
    refine congrArg (V c main_v27) (funext fun a => Fin.ext ?_)
    match a with
    | ⟨0, _⟩ =>
      show win1_2.index t (0 : Fin 2) * 1 + 1 * 0 = 0
      omega
    | ⟨1, _⟩ =>
      show win1_2.index t (1 : Fin 2) * 128 + 1 * (j 1).val = win1_3.index t (1 : Fin 2) * 128 + 1 * (j 1).val
      omega

/-- An index of the result array is in point t's block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v28).slice (win1_3.rect t)).set ↔ _
  rw [View.set_slice_whole, Rect.mem_set_unit]
  exact Iff.rfl

/-- The ten blocks tile the result: row r is in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e30, e31⟩ := block_index1 ⟨(i 0).val / 5000, ht⟩
  refine ⟨⟨(i 0).val / 5000, ht⟩, flush1_3 _, ?_⟩
  rw [mem_block1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e31]
    omega

/-- The result array after the region: the rectified affine form of the arrays it was entered at. -/
theorem final1 (c : Dev nD) :
    (dat1 V c).arrAt 3 cfg1.N
      = Cert.RowAffine.rect (a := 50000) (n := 128) (Ideal.ofBits .f32 0x00000000#32) (V c main_v25) (V c main_v26) (V c main_v27) :=
  (dat1 V c).arrAt_eq_of_cover 3 _ (fun t _ => flushed1_eq V c t) (cover1)

end Cert.KernelIdeal.Hand

end
-- ==== Proof.Region2.lean ====
/-
  Region 2: a row-scaled product, block by block.

  The grid has ten points; point t stages rows 5000 t .. 5000 t + 4999 of the feature array and of the scale column and
  the whole weight matrix, and writes back rows 5000 t .. 5000 t + 4999 of the result.  The body's one store is the
  product of the scaled block with the weights, an entry of which reads one row of the block, one scale and one column of
  the weights: so what point t writes back is block t of the row-scaled product of the WHOLE arrays, the ten blocks tile
  the result, and the result array ends holding that product.  Stated for any contents `V` the region is entered at.
-/
import proofs.«153666_j4432406250065_1_alg».proof.Proof.Gen.KernelIdeal.Frame
import proofs.«153666_j4432406250065_1_alg».proof.Proof.LibScaledDense
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The body's stored value is the row-scaled product of the blocks it loaded. -/
theorem tile2_eq (x0 : Vec Ideal S5000x128 .f32) (x1 : Vec Ideal S5000x1 .f32) (x2 : Vec Ideal S128x64 .f32) :
    k2_pay1 x0 x1 x2 = Cert.ScaledDense.spec (a := 5000) (k := 128) (n := 64) x0 x1 x2 := by
  unfold k2_pay1
  dsimp only
  simp only [shapeCast_self]
  have hscaled : (mulf (x0 : FVec Ideal S5000x128 .f32)
        (broadcastTo S5000x128 (x1 : FVec Ideal S5000x1 .f32) broadcasts_S5000x1_S5000x128) : FVec Ideal S5000x128 .f32)
      = Cert.ScaledDense.scaled (a := 5000) (k := 128) x0 x1 := by
    funext i
    obtain ⟨r, l, rfl⟩ : ∃ (r : Fin 5000) (l : Fin 128), i = ix2 r l := ⟨i 0, i 1, eq_ix2 i⟩
    rw [mulf_apply, Cert.LibKeepdims.broadcastTo_a1_ab_apply]
    rfl
  rw [hscaled]
  funext j
  obtain ⟨r, q, rfl⟩ : ∃ (r : Fin 5000) (q : Fin 64), j = ix2 r q := ⟨j 0, j 1, eq_ix2 j⟩
  exact Cert.LibMatmulPlain.matmul_zero_apply dot_S5000x128_S128x64_S5000x64_1_0_0_1_n_n rfl rfl rfl rfl rfl rfl none _ _ r q

/-- The block indices over the grid: the row windows move with the point, the weights stay. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the row-scaled product of the arrays the region is entered at. -/
theorem flushed2_eq (c : Dev nD) (t : Fin cfg2.N) :
    (dat2 V c).flushed 3 t = ((cfg2.win 3).blk t).view.read (Elt Ideal)
      (Cert.ScaledDense.spec (a := 50000) (k := 128) (n := 64) (V c main_v28) (V c main_v29) (V c main_arg3)) := by
  show (cfg2.win 3).cut (grid2.coords t) ((dat2 V c).after 3 t) = _
  rw [after2_3]
  unfold out2_3
  rw [View.canon_unit_zero zero_offsets2]
  simp only [View.ld_unit_zero (S := S5000x128) zero_offsets2, View.ld_unit_zero (S := S5000x1) zero_offsets2,
    View.ld_unit_zero (S := S128x64) zero_offsets2]
  rw [tile2_eq]
  obtain ⟨e00, e01, e10, e11, e20, e21, e30, e31⟩ := block_index2 t
  funext j
  show Cert.ScaledDense.spec (a := 5000) (k := 128) (n := 64) (iblk2 V c 0 t) (iblk2 V c 1 t) (iblk2 V c 2 t) j
    = Cert.ScaledDense.spec (a := 50000) (k := 128) (n := 64) (V c main_v28) (V c main_v29) (V c main_arg3)
        (((cfg2.win 3).blk t).view.emb j)
  refine Cert.ScaledDense.spec_congr_at _ _ _ _ _ _ j _ (fun l => ?_) ?_ (fun l => ?_)
  · show V c main_v28 (((cfg2.win 0).blk t).view.emb (ix2 (j 0) l))
      = V c main_v28 (ix2 ((((cfg2.win 3).blk t).view.emb j) 0) l)
    refine congrArg (V c main_v28) (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 128 + 1 * l.val = l.val
      omega
  · show V c main_v29 (((cfg2.win 1).blk t).view.emb (ix2 (j 0) (0 : Fin 1)))
      = V c main_v29 (ix2 ((((cfg2.win 3).blk t).view.emb j) 0) (0 : Fin 1))
    refine congrArg (V c main_v29) (funext fun a => Fin.ext ?_)
    match a with
    | ⟨0, _⟩ =>
      show win2_1.index t (0 : Fin 2) * 5000 + 1 * (j 0).val = win2_3.index t (0 : Fin 2) * 5000 + 1 * (j 0).val
      omega
    | ⟨1, _⟩ =>
      show win2_1.index t (1 : Fin 2) * 1 + 1 * 0 = 0
      omega
  · show V c main_arg3 (((cfg2.win 2).blk t).view.emb (ix2 l (j 1)))
      = V c main_arg3 (ix2 l ((((cfg2.win 3).blk t).view.emb j) 1))
    refine congrArg (V c main_arg3) (funext fun a => Fin.ext ?_)
    match a with
    | ⟨0, _⟩ =>
      show win2_2.index t (0 : Fin 2) * 128 + 1 * l.val = l.val
      omega
    | ⟨1, _⟩ =>
      show win2_2.index t (1 : Fin 2) * 64 + 1 * (j 1).val = win2_3.index t (1 : Fin 2) * 64 + 1 * (j 1).val
      omega

/-- An index of the result array is in point t's block iff each coordinate is in the block's range on its axis. -/
theorem mem_block2 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v30).slice (win2_3.rect t)).set ↔ _
  rw [View.set_slice_whole, Rect.mem_set_unit]
  exact Iff.rfl

/-- The ten blocks tile the result: row r is in the block of point r / 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, e30, e31⟩ := block_index2 ⟨(i 0).val / 5000, ht⟩
  refine ⟨⟨(i 0).val / 5000, ht⟩, flush2_3 _, ?_⟩
  rw [mem_block2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val
      ∧ (i 1).val < win2_3.index ⟨(i 0).val / 5000, ht⟩ (1 : Fin 2) * 64 + 64
    rw [e31]
    omega

/-- The result array after the region: the row-scaled product of the arrays it was entered at. -/
theorem final2 (c : Dev nD) :
    (dat2 V c).arrAt 3 cfg2.N
      = Cert.ScaledDense.spec (a := 50000) (k := 128) (n := 64) (V c main_v28) (V c main_v29) (V c main_arg3) :=
  (dat2 V c).arrAt_eq_of_cover 3 _ (fun t _ => flushed2_eq V c t) (cover2)

end Cert.KernelIdeal.Hand

end
-- ==== Proof.Region3.lean ====
/-
  Region 3: a row-scaled array plus a bias row, block by block.

  The grid has ten points; point t stages rows 5000 t .. 5000 t + 4999 of the aggregated array and of the scale column
  and the whole bias row, and writes back rows 5000 t .. 5000 t + 4999 of the result.  The body's one store is entry by
  entry a(r, q) * s(r, 0) + b(0, q), which reads the same entry of the block, one scale and one bias: so what point t
  writes back is block t of the affine form of the WHOLE arrays, the ten blocks tile the result, and the result array ends
  holding that form.  Stated for any contents `V` the region is entered at.
-/
import proofs.«153666_j4432406250065_1_alg».proof.Proof.Gen.KernelIdeal.Frame
import proofs.«153666_j4432406250065_1_alg».proof.Proof.LibRowAffine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The body's stored value is the affine form of the blocks it loaded. -/
theorem tile3_eq (x0 : Vec Ideal S5000x64 .f32) (x1 : Vec Ideal S5000x1 .f32) (x2 : Vec Ideal S1x64 .f32) :
    k3_pay1 x0 x1 x2 = Cert.RowAffine.spec (a := 5000) (n := 64) x0 x1 x2 := by
  unfold k3_pay1
  dsimp only
  rw [Cert.RowAffine.tile_eq_spec]

/-- The block indices over the grid: the row windows move with the point, the bias row stays. -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the affine form of the arrays the region is entered at. -/
theorem flushed3_eq (c : Dev nD) (t : Fin cfg3.N) :
    (dat3 V c).flushed 3 t = ((cfg3.win 3).blk t).view.read (Elt Ideal)
      (Cert.RowAffine.spec (a := 50000) (n := 64) (V c main_v40) (V c main_v41) (V c main_v42)) := by
  show (cfg3.win 3).cut (grid3.coords t) ((dat3 V c).after 3 t) = _
  rw [after3_3]
  unfold out3_3
  rw [View.canon_unit_zero zero_offsets3]
  simp only [View.ld_unit_zero (S := S5000x64) zero_offsets3, View.ld_unit_zero (S := S5000x1) zero_offsets3,
    View.ld_unit_zero (S := S1x64) zero_offsets3]
  rw [tile3_eq]
  obtain ⟨e00, e01, e10, e11, e20, e21, e30, e31⟩ := block_index3 t
  funext j
  show Cert.RowAffine.spec (a := 5000) (n := 64) (iblk3 V c 0 t) (iblk3 V c 1 t) (iblk3 V c 2 t) j
    = Cert.RowAffine.spec (a := 50000) (n := 64) (V c main_v40) (V c main_v41) (V c main_v42) (((cfg3.win 3).blk t).view.emb j)
  refine Cert.RowAffine.spec_congr_at _ _ _ _ _ _ j _ ?_ ?_ ?_
  · show V c main_v40 (((cfg3.win 0).blk t).view.emb j) = V c main_v40 (((cfg3.win 3).blk t).view.emb j)
    refine congrArg (V c main_v40) (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 64 + 1 * (j 1).val = win3_3.index t (1 : Fin 2) * 64 + 1 * (j 1).val
      omega
  · show V c main_v41 (((cfg3.win 1).blk t).view.emb (ix2 (j 0) (0 : Fin 1)))
      = V c main_v41 (ix2 ((((cfg3.win 3).blk t).view.emb j) 0) (0 : Fin 1))
    refine congrArg (V c main_v41) (funext fun a => Fin.ext ?_)
    match a with
    | ⟨0, _⟩ =>
      show win3_1.index t (0 : Fin 2) * 5000 + 1 * (j 0).val = win3_3.index t (0 : Fin 2) * 5000 + 1 * (j 0).val
      omega
    | ⟨1, _⟩ =>
      show win3_1.index t (1 : Fin 2) * 1 + 1 * 0 = 0
      omega
  · show V c main_v42 (((cfg3.win 2).blk t).view.emb (ix2 (0 : Fin 1) (j 1)))
      = V c main_v42 (ix2 (0 : Fin 1) ((((cfg3.win 3).blk t).view.emb j) 1))
    refine congrArg (V c main_v42) (funext fun a => Fin.ext ?_)
    match a with
    | ⟨0, _⟩ =>
      show win3_2.index t (0 : Fin 2) * 1 + 1 * 0 = 0
      omega
    | ⟨1, _⟩ =>
      show win3_2.index t (1 : Fin 2) * 64 + 1 * (j 1).val = win3_3.index t (1 : Fin 2) * 64 + 1 * (j 1).val
      omega

/-- An index of the result array is in point t's block iff each coordinate is in the block's range on its axis. -/
theorem mem_block3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v43).slice (win3_3.rect t)).set ↔ _
  rw [View.set_slice_whole, Rect.mem_set_unit]
  exact Iff.rfl

/-- The ten blocks tile the result: row r is in the block of point r / 5000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨-, -, -, -, -, -, e30, e31⟩ := block_index3 ⟨(i 0).val / 5000, ht⟩
  refine ⟨⟨(i 0).val / 5000, ht⟩, flush3_3 _, ?_⟩
  rw [mem_block3]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win3_3.index ⟨(i 0).val / 5000, ht⟩ (1 : Fin 2) * 64 ≤ (i 1).val
      ∧ (i 1).val < win3_3.index ⟨(i 0).val / 5000, ht⟩ (1 : Fin 2) * 64 + 64
    rw [e31]
    omega

/-- The result array after the region: the affine form of the arrays it was entered at. -/
theorem final3 (c : Dev nD) :
    (dat3 V c).arrAt 3 cfg3.N
      = Cert.RowAffine.spec (a := 50000) (n := 64) (V c main_v40) (V c main_v41) (V c main_v42) :=
  (dat3 V c).arrAt_eq_of_cover 3 _ (fun t _ => flushed3_eq V c t) (cover3)

end Cert.KernelIdeal.Hand

end
-- ==== Proof.Fold.lean ====
/-
  The fold through the program: what each buffer that is still read later holds at each segment boundary, as a function
  of the launch memory.

  Boundary 1 follows the first host stretch (the two degree norms, the first scale column), boundary 2 region 0 (the
  first product), boundary 3 the second stretch (the first aggregation, the second scale column, the first bias row),
  boundary 4 region 1 (the first layer), boundary 5 the third stretch (the scale column again), boundary 6 region 2 (the
  second product), boundary 7 the fourth stretch (the second aggregation, the scale column, the second bias row),
  boundary 8 region 3 (the network).  A host stretch rewrites the buffers its operations write and leaves the rest; a
  region leaves its output array at its closed form of its three input arrays as entered and leaves every other buffer.
-/
import proofs.«153666_j4432406250065_1_alg».proof.Proof.Gen.KernelIdeal.Frame
import proofs.«153666_j4432406250065_1_alg».proof.Proof.Spec
import proofs.«153666_j4432406250065_1_alg».proof.Proof.Region0
import proofs.«153666_j4432406250065_1_alg».proof.Proof.Region1
import proofs.«153666_j4432406250065_1_alg».proof.Proof.Region2
import proofs.«153666_j4432406250065_1_alg».proof.Proof.Region3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

open Idealize.ShloMosaic.StableHlo

variable (m : (ℓ : Loc nD τ sig) → Buf (Elt Ideal) ℓ) (ρ : Dev nD → PrngReg) (c : Dev nD)

/-- The seven argument arrays of core `c` at launch. -/
abbrev a0 : FVec Ideal S50000x128 .f32 := m ((c : Thread nD τ).loc main_arg0)
abbrev a1 : FVec Ideal S128x128 .f32 := m ((c : Thread nD τ).loc main_arg1)
abbrev a2 : FVec Ideal S128 .f32 := m ((c : Thread nD τ).loc main_arg2)
abbrev a3 : FVec Ideal S128x64 .f32 := m ((c : Thread nD τ).loc main_arg3)
abbrev a4 : FVec Ideal S64 .f32 := m ((c : Thread nD τ).loc main_arg4)
abbrev a5 : Edges := m ((c : Thread nD τ).loc main_arg5)
abbrev a6 : Edges := m ((c : Thread nD τ).loc main_arg6)

/-! ## Boundary 1: after the first host stretch -/

theorem W1_arg0 : W1 m ρ c (Proc.devRef .tc main_arg0) = (a0 m c) := by
  show StableHlo.after hostOps0 (W0 m ρ c) (Proc.devRef .tc main_arg0) = _
  dsimp only [hostOps0]
  after_results_simp
theorem W1_arg1 : W1 m ρ c (Proc.devRef .tc main_arg1) = (a1 m c) := by
  show StableHlo.after hostOps0 (W0 m ρ c) (Proc.devRef .tc main_arg1) = _
  dsimp only [hostOps0]
  after_results_simp
theorem W1_arg2 : W1 m ρ c (Proc.devRef .tc main_arg2) = (a2 m c) := by
  show StableHlo.after hostOps0 (W0 m ρ c) (Proc.devRef .tc main_arg2) = _
  dsimp only [hostOps0]
  after_results_simp
theorem W1_arg3 : W1 m ρ c (Proc.devRef .tc main_arg3) = (a3 m c) := by
  show StableHlo.after hostOps0 (W0 m ρ c) (Proc.devRef .tc main_arg3) = _
  dsimp only [hostOps0]
  after_results_simp
theorem W1_arg4 : W1 m ρ c (Proc.devRef .tc main_arg4) = (a4 m c) := by
  show StableHlo.after hostOps0 (W0 m ρ c) (Proc.devRef .tc main_arg4) = _
  dsimp only [hostOps0]
  after_results_simp
theorem W1_arg5 : W1 m ρ c (Proc.devRef .tc main_arg5) = (a5 m c) := by
  show StableHlo.after hostOps0 (W0 m ρ c) (Proc.devRef .tc main_arg5) = _
  dsimp only [hostOps0]
  after_results_simp
theorem W1_arg6 : W1 m ρ c (Proc.devRef .tc main_arg6) = (a6 m c) := by
  show StableHlo.after hostOps0 (W0 m ρ c) (Proc.devRef .tc main_arg6) = _
  dsimp only [hostOps0]
  after_results_simp
theorem W1_v6 : W1 m ρ c (Proc.devRef .tc main_v6) = (invSqrtDeg (a5 m c)) := by
  show StableHlo.after hostOps0 (W0 m ρ c) (Proc.devRef .tc main_v6) = _
  dsimp only [hostOps0]
  after_results_simp
  rfl
theorem W1_v13 : W1 m ρ c (Proc.devRef .tc main_v13) = (invSqrtDeg (a6 m c)) := by
  show StableHlo.after hostOps0 (W0 m ρ c) (Proc.devRef .tc main_v13) = _
  dsimp only [hostOps0]
  after_results_simp
  rfl
theorem W1_v14 : W1 m ρ c (Proc.devRef .tc main_v14) = (column (invSqrtDeg (a5 m c))) := by
  show StableHlo.after hostOps0 (W0 m ρ c) (Proc.devRef .tc main_v14) = _
  dsimp only [hostOps0]
  after_results_simp
  rfl

/-! ## Boundary 2: after region 0 -/

theorem W2_v15 : W2 m ρ c (Proc.devRef .tc main_v15) = (product1 (a0 m c) (a1 m c) (a5 m c)) := by
  refine (W2_arr m ρ c 3).trans ((final0 (V1 m ρ) c).trans ?_)
  have e0 : V1 m ρ c main_arg0 = (a0 m c) := W1_arg0 m ρ c
  have e1 : V1 m ρ c main_v14 = (column (invSqrtDeg (a5 m c))) := W1_v14 m ρ c
  have e2 : V1 m ρ c main_arg1 = (a1 m c) := W1_arg1 m ρ c
  rw [e0, e1, e2]
  rfl
theorem W2_v6 : W2 m ρ c (Proc.devRef .tc main_v6) = (invSqrtDeg (a5 m c)) :=
  (W2_of_ne m ρ c main_v6 (by decide)).trans (W1_v6 m ρ c)
theorem W2_v13 : W2 m ρ c (Proc.devRef .tc main_v13) = (invSqrtDeg (a6 m c)) :=
  (W2_of_ne m ρ c main_v13 (by decide)).trans (W1_v13 m ρ c)
theorem W2_arg2 : W2 m ρ c (Proc.devRef .tc main_arg2) = (a2 m c) :=
  (W2_of_ne m ρ c main_arg2 (by decide)).trans (W1_arg2 m ρ c)
theorem W2_arg3 : W2 m ρ c (Proc.devRef .tc main_arg3) = (a3 m c) :=
  (W2_of_ne m ρ c main_arg3 (by decide)).trans (W1_arg3 m ρ c)
theorem W2_arg4 : W2 m ρ c (Proc.devRef .tc main_arg4) = (a4 m c) :=
  (W2_of_ne m ρ c main_arg4 (by decide)).trans (W1_arg4 m ρ c)
theorem W2_arg5 : W2 m ρ c (Proc.devRef .tc main_arg5) = (a5 m c) :=
  (W2_of_ne m ρ c main_arg5 (by decide)).trans (W1_arg5 m ρ c)
theorem W2_arg6 : W2 m ρ c (Proc.devRef .tc main_arg6) = (a6 m c) :=
  (W2_of_ne m ρ c main_arg6 (by decide)).trans (W1_arg6 m ρ c)

/-! ## Boundary 3: after the second host stretch -/

theorem W3_v6 : W3 m ρ c (Proc.devRef .tc main_v6) = (invSqrtDeg (a5 m c)) := by
  show StableHlo.after hostOps1 (W2 m ρ c) (Proc.devRef .tc main_v6) = _
  dsimp only [hostOps1]
  after_results_simp
  exact W2_v6 m ρ c
theorem W3_v13 : W3 m ρ c (Proc.devRef .tc main_v13) = (invSqrtDeg (a6 m c)) := by
  show StableHlo.after hostOps1 (W2 m ρ c) (Proc.devRef .tc main_v13) = _
  dsimp only [hostOps1]
  after_results_simp
  exact W2_v13 m ρ c
theorem W3_arg3 : W3 m ρ c (Proc.devRef .tc main_arg3) = (a3 m c) := by
  show StableHlo.after hostOps1 (W2 m ρ c) (Proc.devRef .tc main_arg3) = _
  dsimp only [hostOps1]
  after_results_simp
  exact W2_arg3 m ρ c
theorem W3_arg4 : W3 m ρ c (Proc.devRef .tc main_arg4) = (a4 m c) := by
  show StableHlo.after hostOps1 (W2 m ρ c) (Proc.devRef .tc main_arg4) = _
  dsimp only [hostOps1]
  after_results_simp
  exact W2_arg4 m ρ c
theorem W3_arg5 : W3 m ρ c (Proc.devRef .tc main_arg5) = (a5 m c) := by
  show StableHlo.after hostOps1 (W2 m ρ c) (Proc.devRef .tc main_arg5) = _
  dsimp only [hostOps1]
  after_results_simp
  exact W2_arg5 m ρ c
theorem W3_arg6 : W3 m ρ c (Proc.devRef .tc main_arg6) = (a6 m c) := by
  show StableHlo.after hostOps1 (W2 m ρ c) (Proc.devRef .tc main_arg6) = _
  dsimp only [hostOps1]
  after_results_simp
  exact W2_arg6 m ρ c
theorem W3_v25 : W3 m ρ c (Proc.devRef .tc main_v25) = (aggregate128 (product1 (a0 m c) (a1 m c) (a5 m c)) (a5 m c) (a6 m c)) := by
  show StableHlo.after hostOps1 (W2 m ρ c) (Proc.devRef .tc main_v25) = _
  dsimp only [hostOps1]
  after_results_simp
  rw [W2_v15 m ρ c, W2_arg5 m ρ c, W2_arg6 m ρ c]
  rfl
theorem W3_v26 : W3 m ρ c (Proc.devRef .tc main_v26) = (column (invSqrtDeg (a6 m c))) := by
  show StableHlo.after hostOps1 (W2 m ρ c) (Proc.devRef .tc main_v26) = _
  dsimp only [hostOps1]
  after_results_simp
  rw [W2_v13 m ρ c]
  rfl
theorem W3_v27 : W3 m ρ c (Proc.devRef .tc main_v27) = (shapeCast S1x128 (a2 m c) shapeCasts_S128_S1x128) := by
  show StableHlo.after hostOps1 (W2 m ρ c) (Proc.devRef .tc main_v27) = _
  dsimp only [hostOps1]
  after_results_simp
  rw [W2_arg2 m ρ c]
  rfl

/-! ## Boundary 4: after region 1 -/

theorem W4_v28 : W4 m ρ c (Proc.devRef .tc main_v28) = (layer1 (a0 m c) (a1 m c) (a2 m c) (a5 m c) (a6 m c)) := by
  refine (W4_arr m ρ c 3).trans ((final1 (V3 m ρ) c).trans ?_)
  have e0 : V3 m ρ c main_v25 = (aggregate128 (product1 (a0 m c) (a1 m c) (a5 m c)) (a5 m c) (a6 m c)) := W3_v25 m ρ c
  have e1 : V3 m ρ c main_v26 = (column (invSqrtDeg (a6 m c))) := W3_v26 m ρ c
  have e2 : V3 m ρ c main_v27 = (shapeCast S1x128 (a2 m c) shapeCasts_S128_S1x128) := W3_v27 m ρ c
  rw [e0, e1, e2]
  rfl
theorem W4_v6 : W4 m ρ c (Proc.devRef .tc main_v6) = (invSqrtDeg (a5 m c)) :=
  (W4_of_ne m ρ c main_v6 (by decide)).trans (W3_v6 m ρ c)
theorem W4_v13 : W4 m ρ c (Proc.devRef .tc main_v13) = (invSqrtDeg (a6 m c)) :=
  (W4_of_ne m ρ c main_v13 (by decide)).trans (W3_v13 m ρ c)
theorem W4_arg3 : W4 m ρ c (Proc.devRef .tc main_arg3) = (a3 m c) :=
  (W4_of_ne m ρ c main_arg3 (by decide)).trans (W3_arg3 m ρ c)
theorem W4_arg4 : W4 m ρ c (Proc.devRef .tc main_arg4) = (a4 m c) :=
  (W4_of_ne m ρ c main_arg4 (by decide)).trans (W3_arg4 m ρ c)
theorem W4_arg5 : W4 m ρ c (Proc.devRef .tc main_arg5) = (a5 m c) :=
  (W4_of_ne m ρ c main_arg5 (by decide)).trans (W3_arg5 m ρ c)
theorem W4_arg6 : W4 m ρ c (Proc.devRef .tc main_arg6) = (a6 m c) :=
  (W4_of_ne m ρ c main_arg6 (by decide)).trans (W3_arg6 m ρ c)

/-! ## Boundary 5: after the third host stretch -/

theorem W5_v28 : W5 m ρ c (Proc.devRef .tc main_v28) = (layer1 (a0 m c) (a1 m c) (a2 m c) (a5 m c) (a6 m c)) := by
  show StableHlo.after hostOps2 (W4 m ρ c) (Proc.devRef .tc main_v28) = _
  dsimp only [hostOps2]
  after_results_simp
  exact W4_v28 m ρ c
theorem W5_v13 : W5 m ρ c (Proc.devRef .tc main_v13) = (invSqrtDeg (a6 m c)) := by
  show StableHlo.after hostOps2 (W4 m ρ c) (Proc.devRef .tc main_v13) = _
  dsimp only [hostOps2]
  after_results_simp
  exact W4_v13 m ρ c
theorem W5_arg3 : W5 m ρ c (Proc.devRef .tc main_arg3) = (a3 m c) := by
  show StableHlo.after hostOps2 (W4 m ρ c) (Proc.devRef .tc main_arg3) = _
  dsimp only [hostOps2]
  after_results_simp
  exact W4_arg3 m ρ c
theorem W5_arg4 : W5 m ρ c (Proc.devRef .tc main_arg4) = (a4 m c) := by
  show StableHlo.after hostOps2 (W4 m ρ c) (Proc.devRef .tc main_arg4) = _
  dsimp only [hostOps2]
  after_results_simp
  exact W4_arg4 m ρ c
theorem W5_arg5 : W5 m ρ c (Proc.devRef .tc main_arg5) = (a5 m c) := by
  show StableHlo.after hostOps2 (W4 m ρ c) (Proc.devRef .tc main_arg5) = _
  dsimp only [hostOps2]
  after_results_simp
  exact W4_arg5 m ρ c
theorem W5_arg6 : W5 m ρ c (Proc.devRef .tc main_arg6) = (a6 m c) := by
  show StableHlo.after hostOps2 (W4 m ρ c) (Proc.devRef .tc main_arg6) = _
  dsimp only [hostOps2]
  after_results_simp
  exact W4_arg6 m ρ c
theorem W5_v29 : W5 m ρ c (Proc.devRef .tc main_v29) = (column (invSqrtDeg (a5 m c))) := by
  show StableHlo.after hostOps2 (W4 m ρ c) (Proc.devRef .tc main_v29) = _
  dsimp only [hostOps2]
  after_results_simp
  rw [W4_v6 m ρ c]
  rfl

/-! ## Boundary 6: after region 2 -/

theorem W6_v30 : W6 m ρ c (Proc.devRef .tc main_v30) = (product2 (layer1 (a0 m c) (a1 m c) (a2 m c) (a5 m c) (a6 m c)) (a3 m c) (a5 m c)) := by
  refine (W6_arr m ρ c 3).trans ((final2 (V5 m ρ) c).trans ?_)
  have e0 : V5 m ρ c main_v28 = (layer1 (a0 m c) (a1 m c) (a2 m c) (a5 m c) (a6 m c)) := W5_v28 m ρ c
  have e1 : V5 m ρ c main_v29 = (column (invSqrtDeg (a5 m c))) := W5_v29 m ρ c
  have e2 : V5 m ρ c main_arg3 = (a3 m c) := W5_arg3 m ρ c
  rw [e0, e1, e2]
  rfl
theorem W6_v13 : W6 m ρ c (Proc.devRef .tc main_v13) = (invSqrtDeg (a6 m c)) :=
  (W6_of_ne m ρ c main_v13 (by decide)).trans (W5_v13 m ρ c)
theorem W6_arg4 : W6 m ρ c (Proc.devRef .tc main_arg4) = (a4 m c) :=
  (W6_of_ne m ρ c main_arg4 (by decide)).trans (W5_arg4 m ρ c)
theorem W6_arg5 : W6 m ρ c (Proc.devRef .tc main_arg5) = (a5 m c) :=
  (W6_of_ne m ρ c main_arg5 (by decide)).trans (W5_arg5 m ρ c)
theorem W6_arg6 : W6 m ρ c (Proc.devRef .tc main_arg6) = (a6 m c) :=
  (W6_of_ne m ρ c main_arg6 (by decide)).trans (W5_arg6 m ρ c)

/-! ## Boundary 7: after the fourth host stretch -/

theorem W7_v40 : W7 m ρ c (Proc.devRef .tc main_v40) = (aggregate64 (product2 (layer1 (a0 m c) (a1 m c) (a2 m c) (a5 m c) (a6 m c)) (a3 m c) (a5 m c)) (a5 m c) (a6 m c)) := by
  show StableHlo.after hostOps3 (W6 m ρ c) (Proc.devRef .tc main_v40) = _
  dsimp only [hostOps3]
  after_results_simp
  rw [W6_v30 m ρ c, W6_arg5 m ρ c, W6_arg6 m ρ c]
  rfl
theorem W7_v41 : W7 m ρ c (Proc.devRef .tc main_v41) = (column (invSqrtDeg (a6 m c))) := by
  show StableHlo.after hostOps3 (W6 m ρ c) (Proc.devRef .tc main_v41) = _
  dsimp only [hostOps3]
  after_results_simp
  rw [W6_v13 m ρ c]
  rfl
theorem W7_v42 : W7 m ρ c (Proc.devRef .tc main_v42) = (shapeCast S1x64 (a4 m c) shapeCasts_S64_S1x64) := by
  show StableHlo.after hostOps3 (W6 m ρ c) (Proc.devRef .tc main_v42) = _
  dsimp only [hostOps3]
  after_results_simp
  rw [W6_arg4 m ρ c]
  rfl

/-! ## Boundary 8: after region 3 -/

/-- The result buffer at the last boundary: the network of the seven argument arrays. -/
theorem W8_v43 : W8 m ρ c (Proc.devRef .tc main_v43) = (network (a0 m c) (a1 m c) (a2 m c) (a3 m c) (a4 m c) (a5 m c) (a6 m c)) := by
  refine (W8_arr m ρ c 3).trans ((final3 (V7 m ρ) c).trans ?_)
  have e0 : V7 m ρ c main_v40 = (aggregate64 (product2 (layer1 (a0 m c) (a1 m c) (a2 m c) (a5 m c) (a6 m c)) (a3 m c) (a5 m c)) (a5 m c) (a6 m c)) := W7_v40 m ρ c
  have e1 : V7 m ρ c main_v41 = (column (invSqrtDeg (a6 m c))) := W7_v41 m ρ c
  have e2 : V7 m ρ c main_v42 = (shapeCast S1x64 (a4 m c) shapeCasts_S64_S1x64) := W7_v42 m ρ c
  rw [e0, e1, e2]
  rfl

end Cert.KernelIdeal.Hand

end
-- ==== Proof.RefValue.lean ====
/-
  The reference's result is the network of its argument arrays.

  The reference's run ends with its result at the composed term of its host operations.  Piece by piece that term is the
  network of Spec.lean: each dot_general of an array times a scale column laid over its columns is the row-scaled
  product, each "times a column plus a row" the affine form, the maximum with a zero constant the rectifier, a
  per-node vector laid out as a column (or a bias as a row) by broadcast_in_dim the same layout by reshape; the degree
  norms, the wrapped edge ends and the gather / scatter-add are the same operations in both programs.
-/
import proofs.«153666_j4432406250065_1_alg».proof.Proof.Gen.ReferenceIdeal.Run
import proofs.«153666_j4432406250065_1_alg».proof.Proof.Spec

set_option maxRecDepth 16384

noncomputable section

namespace Cert.ReferenceIdeal.RefValue

open Idealize.ShloMosaic Idealize.ShloMosaic.TcCoe Idealize.SL.Sem
open Cert.KernelIdeal.Hand

variable (m : (ℓ : Loc Cert.ReferenceIdeal.nD Cert.ReferenceIdeal.τ Cert.ReferenceIdeal.sig) → Buf (Elt Ideal) ℓ)
  (c : Dev Cert.ReferenceIdeal.nD)

set_option maxHeartbeats 4000000 in
theorem result_eq : Cert.ReferenceIdeal.Value.res_main_v54 (F := Ideal) m c
    = network (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6)) := by
  unfold Cert.ReferenceIdeal.Value.res_main_v54
  rw [Cert.ScaledDense.host_eq_spec Cert.ReferenceIdeal.dot_S50000x128_S128x128_S50000x128_1_0_0_1_n_n rfl rfl rfl rfl rfl rfl,
    Cert.ScaledDense.host_eq_spec Cert.ReferenceIdeal.dot_S50000x128_S128x64_S50000x64_1_0_0_1_n_n rfl rfl rfl rfl rfl rfl]
  rw [Cert.RowAffine.host_eq_spec (a := 50000) (n := 64), Cert.RowAffine.host_eq_spec (a := 50000) (n := 128),
    Cert.RowAffine.host_rect (a := 50000) (n := 128) 0x00000000#32]
  rw [← Cert.Dense.column_cast_eq_bcast (a := 50000) _ Cert.KernelIdeal.Facts₀.shapeCasts_S50000_S50000x1 _,
    ← Cert.Dense.column_cast_eq_bcast (a := 50000) _ Cert.KernelIdeal.Facts₀.shapeCasts_S50000_S50000x1 _,
    ← Cert.Dense.row_cast_eq_bcast (n := 128) _ Cert.KernelIdeal.Facts₀.shapeCasts_S128_S1x128 _,
    ← Cert.Dense.row_cast_eq_bcast (n := 64) _ Cert.KernelIdeal.Facts₀.shapeCasts_S64_S1x64 _]
  rfl

end Cert.ReferenceIdeal.RefValue

end
-- ==== Proof.lean ====
/-
  A two-layer graph convolution, tiled, against its plain reference, on the extended reals.

  Both programs compute, for 50000 nodes with 128 features and 800000 edges (src, dst),

      ns = rsqrt (max (out-degree, 1)),    nd = rsqrt (max (in-degree, 1)),
      h1 = max (aggregate ((x * ns) W1) * nd + b1, 0),
      out = aggregate ((h1 * ns) W2) * nd + b2,

  where aggregate sums, into each node, the rows of the source nodes of the edges that enter it.  The degree counts, the
  gather and the scatter-add are the same host operations in both programs.  The kernel computes the two row-scaled
  products and the two affine forms in four regions of ten grid points each, 5000 rows to a point, with the operands of
  the products rounded to bfloat16 (a change of format, which does nothing to an extended real) and the matrix unit
  accumulating from zero; the reference computes them with dot_general and broadcast_in_dim on the whole arrays.  An
  entry of a row-scaled product reads one row, one scale and one column, and an entry of an affine form one entry, one
  scale and one bias, so a block of rows of either is that form of the block of rows: the ten blocks a region writes
  back tile its result with the whole-array form.  Nothing in the comparison needs an entry to be finite: the two sides
  are the same sums of the same products in the same arrangement.

  The frames of the two kernel programs are the generated ones; the reference's frame is its generated run with the
  result dropped; the idealization rewrote no operation, so `preserves` is trivial.
-/
import proofs.«153666_j4432406250065_1_alg».proof.Defs
import proofs.«153666_j4432406250065_1_alg».proof.Proof.Gen.Kernel
import proofs.«153666_j4432406250065_1_alg».proof.Proof.Gen.Kernel.Skeleton
import proofs.«153666_j4432406250065_1_alg».proof.Proof.Gen.Kernel.Launch
import proofs.«153666_j4432406250065_1_alg».proof.Proof.Gen.Kernel.Points
import proofs.«153666_j4432406250065_1_alg».proof.Proof.Gen.Kernel.Frame
import proofs.«153666_j4432406250065_1_alg».proof.Proof.Gen.KernelIdeal
import proofs.«153666_j4432406250065_1_alg».proof.Proof.Gen.KernelIdeal.Skeleton
import proofs.«153666_j4432406250065_1_alg».proof.Proof.Gen.KernelIdeal.Launch
import proofs.«153666_j4432406250065_1_alg».proof.Proof.Gen.KernelIdeal.Points
import proofs.«153666_j4432406250065_1_alg».proof.Proof.Gen.KernelIdeal.Frame
import proofs.«153666_j4432406250065_1_alg».proof.Proof.Gen.ReferenceIdeal
import proofs.«153666_j4432406250065_1_alg».proof.Proof.Gen.Pre_finite_inputs
import proofs.«153666_j4432406250065_1_alg».proof.Proof.Gen.ReferenceIdeal.Run
import proofs.«153666_j4432406250065_1_alg».proof.Proof.KernelRun
import proofs.«153666_j4432406250065_1_alg».proof.Proof.Fold
import proofs.«153666_j4432406250065_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the argument arrays: the kernel's by the fold through its four
    regions, the reference's by reading its composed term; the argument arrays agree. -/
theorem algebraic : Cert.algebraic_KernelIdeal_ReferenceIdeal := by
  intro m ρ m' ρ' _ hagree
  refine ⟨fun c => Cert.KernelIdeal.Hand.network (Cert.KernelIdeal.Hand.a0 m c) (Cert.KernelIdeal.Hand.a1 m c)
      (Cert.KernelIdeal.Hand.a2 m c) (Cert.KernelIdeal.Hand.a3 m c) (Cert.KernelIdeal.Hand.a4 m c)
      (Cert.KernelIdeal.Hand.a5 m c) (Cert.KernelIdeal.Hand.a6 m c), ?_, ?_⟩
  · exact (θ_run Cert.KernelIdeal.defs _ _).mono
      (fun r h c => ⟨(h c).1.trans (Cert.KernelIdeal.Hand.W8_v43 m ρ c), (h c).2⟩)
      (Cert.KernelIdeal.Hand.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.RefValue.result_eq m' c, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
